-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S_ : Shape := ⟨0, ![]⟩

class Facts : Prop where
  bcast_S_S128x8192x64 : S_.BroadcastsInDim S128x8192x64 (![] : Fin 0 → Fin S128x8192x64.rank)
  reducesTo_S128x8192x64_S_d0_1_2 : S128x8192x64.ReducesTo [0, 1, 2] S_
  h_S_ : 0 < S_.numel
  bcast_S_S128x6 : S_.BroadcastsInDim S128x6 (![] : Fin 0 → Fin S128x6.rank)
  reducesTo_S128x6_S_d0_1 : S128x6.ReducesTo [0, 1] S_
  bcast_S_S32x6 : S_.BroadcastsInDim S32x6 (![] : Fin 0 → Fin S32x6.rank)
  reducesTo_S32x6_S_d0_1 : S32x6.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S4096x32 .f32) (main_arg5 : FVec F S4096 .f32) (main_arg6 : FVec F S64x6 .f32) (main_arg7 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S64x6 .f32 := Host.absf main_arg6
  let main_cst_10 : FVec F S_ .f32 := constant S_ .f32 0x7F800000#32
  let main_v30 : FVec F S64x6 .f32 := broadcastInDim S64x6 ![] bcast_S_S64x6 main_cst_10
  let main_v31 : IVec S64x6 1 := cmpf .olt main_v29 main_v30
  let main_c_11 : IVec S_ 1 := constantI S_ 1 1#1
  let main_v32 : IVec S_ 1 := (fun x v => Host.reduce IntOp.andi x v reducesTo_S64x6_S_d0_1 h_S_) main_v31 main_c_11
  let main_v33 : IVec S_ 1 := andi main_v28 main_v32
  fn_part2 (F := F) main_arg7 main_v33

def fn {F : FTy → Type} [FloatOps F] (main_arg0 : FVec F S128x8192x64 .f32) (main_arg1 : FVec F S128x6 .f32) (main_arg2 : FVec F S32x6 .f32) (main_arg3 : FVec F S32 .f32) (main_arg4 : FVec F S4096x32 .f32) (main_arg5 : FVec F S4096 .f32) (main_arg6 : FVec F S64x6 .f32) (main_arg7 : FVec F S64 .f32) : IVec S_ 1 :=
  let main_v0 : FVec F S128x8192x64 .f32 := Host.absf main_arg0
  let main_cst : FVec F S_ .f32 := constant S_ .f32 0x7F800000#32
  let main_v1 : FVec F S128x8192x64 .f32 := broadcastInDim S128x8192x64 ![] bcast_S_S128x8192x64 main_cst
  let main_v2 : IVec S128x8192x64 1 := cmpf .olt main_v0 main_v1
  let main_c : IVec S_ 1 := constantI S_ 1 1#1
  let main_v3 : IVec S_ 1 := (fun x v => Host.reduce IntOp.andi x v reducesTo_S128x8192x64_S_d0_1_2 h_S_) main_v2 main_c
  let main_v4 : FVec F S128x6 .f32 := Host.absf main_arg1
  let main_cst_0 : FVec F S_ .f32 := constant S_ .f32 0x7F800000#32
  let main_v5 : FVec F S128x6 .f32 := broadcastInDim S128x6 ![] bcast_S_S128x6 main_cst_0
  let main_v6 : IVec S128x6 1 := cmpf .olt main_v4 main_v5
  let main_c_1 : IVec S_ 1 := constantI S_ 1 1#1
  let main_v7 : IVec S_ 1 := (fun x v => Host.reduce IntOp.andi x v reducesTo_S128x6_S_d0_1 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S6x32 : Shape := ⟨2, ![6, 32]⟩
abbrev S128x32 : Shape := ⟨2, ![128, 32]⟩
abbrev S1x32 : Shape := ⟨2, ![1, 32]⟩
abbrev S_ : Shape := ⟨0, ![]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S6x64 : Shape := ⟨2, ![6, 64]⟩
abbrev S128x64 : Shape := ⟨2, ![128, 64]⟩
abbrev S1x64 : Shape := ⟨2, ![1, 64]⟩
abbrev S128x4096x128 : Shape := ⟨3, ![128, 4096, 128]⟩
abbrev S128x64x128 : Shape := ⟨3, ![128, 64, 128]⟩
abbrev S128x128x128 : Shape := ⟨3, ![128, 128, 128]⟩
abbrev S128x128 : Shape := ⟨2, ![128, 128]⟩
abbrev S128x1x128 : Shape := ⟨3, ![128, 1, 128]⟩
abbrev S2x4096x128 : Shape := ⟨3, ![2, 4096, 128]⟩
abbrev S2x128x128 : Shape := ⟨3, ![2, 128, 128]⟩
abbrev S2x1x128 : Shape := ⟨3, ![2, 1, 128]⟩

abbrev nBuf : Space → Nat
  | .hbm => 38
  | .vmem => 8
  | .smem => 0
  | _ => 0

abbrev bufTy : (tb : Table) → Fin (tcTables nBuf tb) → BufTy
  | .hbm, ⟨0, _⟩ => ⟨S128x8192x64, .f32⟩
  | .hbm, ⟨1, _⟩ => ⟨S128x6, .f32⟩
  | .hbm, ⟨2, _⟩ => ⟨S32x6, .f32⟩
  | .hbm, ⟨3, _⟩ => ⟨S32, .f32⟩
  | .hbm, ⟨4, _⟩ => ⟨S4096x32, .f32⟩
  | .hbm, ⟨5, _⟩ => ⟨S4096, .f32⟩
  | .hbm, ⟨6, _⟩ => ⟨S64x6, .f32⟩
  | .hbm, ⟨7, _⟩ => ⟨S64, .f32⟩
  | .hbm, ⟨8, _⟩ => ⟨S6x32, .f32⟩
  | .hbm, ⟨9, _⟩ => ⟨S128x32, .f32⟩
  | .hbm, ⟨10, _⟩ => ⟨S1x32, .f32⟩
  | .hbm, ⟨11, _⟩ => ⟨S128x32, .f32⟩
  | .hbm, ⟨12, _⟩ => ⟨S128x32, .f32⟩
  | .hbm, ⟨13, _⟩ => ⟨S_, .f32⟩
  | .hbm, ⟨14, _⟩ => ⟨S128x32, .f32⟩
  | .hbm, ⟨15, _⟩ => ⟨S128x32, .f32⟩
  | .hbm, ⟨16, _⟩ => ⟨S32x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x64x64, .f32⟩
  | .hbm, ⟨22, _⟩ => ⟨S6x64, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x4096x128, .f32⟩
  | .hbm, ⟨28, _⟩ => ⟨S128x64x64, .f32⟩
  | .hbm, ⟨29, _⟩ => ⟨S_, .f32⟩
  | .hbm, ⟨30, _⟩ => ⟨S128x64x64, .f32⟩
  | .hbm, ⟨31, _⟩ => ⟨S128x64x128, .f32⟩
  | .hbm, ⟨32, _⟩ => ⟨S128x64x128, .f32⟩
  | .hbm, ⟨33, _⟩ => ⟨S128x128x128, .f32⟩
  | .hbm, ⟨34, _⟩ => ⟨S128x128, .f32⟩
  | .hbm, ⟨35, _⟩ => ⟨S128x1x128, .f32⟩
  | .hbm, ⟨36, _⟩ => ⟨S128x4096x128, .f32⟩
  | .hbm, ⟨37, _⟩ => ⟨S128x8192x64, .f32⟩
  | .local _ .vmem, ⟨0, _⟩ => ⟨S2x4096x128, .f32⟩
  | .local _ .vmem, ⟨1, _⟩ => ⟨S2x4096x128, .f32⟩
  | .local _ .vmem, ⟨2, _⟩ => ⟨S2x128x128, .f32⟩
  | .local _ .vmem, ⟨3, _⟩ => ⟨S2x128x128, .f32⟩
  | .local _ .vmem, ⟨4, _⟩ => ⟨S2x1x128, .f32⟩
  | .local _ .vmem, ⟨5, _⟩ => ⟨S2x1x128, .f32⟩
  | .local _ .vmem, ⟨6, _⟩ => ⟨S2x4096x128, .f32⟩
  | .local _ .vmem, ⟨7, _⟩ => ⟨S2x4096x128, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x6_S6x32_1_0 : S32x6.Transposes [1, 0] S6x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x6_S6x64_1_0 : S64x6.Transposes [1, 0] S6x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  shapeCasts_S128x8192x64_S128x4096x128 : S128x8192x64.ShapeCasts S128x4096x128
  transposes_S128x64x64_S128x64x64_0_2_1 : S128x64x64.Transposes [0, 2, 1] S128x64x64
  bcast_S_S128x64x64 : S_.BroadcastsInDim S128x64x64 (![] : Fin 0 → Fin S128x64x64.rank)
  concatenates_S128x64x64_S128x64x64_S128x64x128_d2 : Shape.Concatenates [S128x64x64, S128x64x64] S128x64x128 2
  concatenates_S128x64x128_S128x64x128_S128x128x128_d1 : Shape.Concatenates [S128x64x128, S128x64x128] S128x128x128 1
  concatenates_S128x64_S128x64_S128x128_d1 : Shape.Concatenates [S128x64, S128x64] S128x128 1
  shapeCasts_S128x128_S128x1x128 : S128x128.ShapeCasts S128x1x128
  inb_S2x4096x128_S2x4096x128_0_0_0 : ∀ a, (![0, 0, 0] : Fin 3 → Nat) a + S2x4096x128.size a ≤ S2x4096x128.size a
  h_S2x4096x128 : 0 < S2x4096x128.numel
  shapeCasts_S2x4096x128_S2x4096x128 : S2x4096x128.ShapeCasts S2x4096x128
  bitsLt_bf16_f32 : FTy.bits .bf16 < FTy.bits .f32
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  broadcasts_S2x1x128_S2x4096x128 : S2x1x128.Broadcasts S2x4096x128
  shapeCasts_S128x4096x128_S128x8192x64 : S128x4096x128.ShapeCasts S128x8192x64
  dot_S128x6_S6x32_S128x32_1_0_0_1_n_n_wf : DotDims.WF S128x6 S6x32 S128x32 [1] [0] [0] [1] [] []
  dot_S128x32_S32x4096_S128x4096_1_0_0_1_n_n_wf : DotDims.WF S128x32 S32x4096 S128x4096 [1] [0] [0] [1] [] []
  dot_S128x6_S6x64_S128x64_1_0_0_1_n_n_wf : DotDims.WF S128x6 S6x64 S128x64 [1] [0] [0] [1] [] []
  dot_S2x4096x128_S2x128x128_S2x4096x128_2_1_1_2_0_0_wf : DotDims.WF S2x4096x128 S2x128x128 S2x4096x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S128x4096x128.size a
  hwx0_0 : ∀ i : grid0.Coords, EltTy.bits .f32 = 32 ∨ (Rect.block (s := S128x4096x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S128x128x128.size a
  hwx0_1 : ∀ i : grid0.Coords, EltTy.bits .f32 = 32 ∨ (Rect.block (s := S128x128x128) S2x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S128x1x128.size a
  hwx0_2 : ∀ i : grid0.Coords, EltTy.bits .f32 = 32 ∨ (Rect.block (s := S128x1x128) S2x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x128.size a ≤ S128x4096x128.size a
  hwx0_3 : ∀ i : grid0.Coords, EltTy.bits .f32 = 32 ∨ (Rect.block (s := S128x4096x128) S2x4096x128.size (cc0_transform_3 i) (hinb0_3 i)).WholeWords (EltTy.packing .f32)

variable [Facts₀]

def dot_S128x6_S6x32_S128x32_1_0_0_1_n_n : DotDims S128x6 S6x32 S128x32 where
  lhsContracting := [1]
  rhsContracting := [0]
  lhsNonContracting := [0]
  rhsNonContracting := [1]
  lhsBatch := []
  rhsBatch := []
  wf := dot_S128x6_S6x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x6_S6x64_S128x64_1_0_0_1_n_n : DotDims S128x6 S6x64 S128x64 where
  lhsContracting := [1]
  rhsContracting := [0]
  lhsNonContracting := [0]
  rhsNonContracting := [1]
  lhsBatch := []
  rhsBatch := []
  wf := dot_S128x6_S6x64_S128x64_1_0_0_1_n_n_wf
def dot_S2x4096x128_S2x128x128_S2x4096x128_2_1_1_2_0_0 : DotDims S2x4096x128 S2x128x128 S2x4096x128 where
  lhsContracting := [2]
  rhsContracting := [1]
  lhsNonContracting := [1]
  rhsNonContracting := [2]
  lhsBatch := [0]
  rhsBatch := [0]
  wf := dot_S2x4096x128_S2x128x128_S2x4096x128_2_1_1_2_0_0_wf

abbrev win0_0 : Pipeline.Window sig grid0 :=
  Pipeline.Window.ofSpec (Memref.whole main_v17) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S6x32 : Shape := ⟨2, ![6, 32]⟩
abbrev S128x32 : Shape := ⟨2, ![128, 32]⟩
abbrev S1x32 : Shape := ⟨2, ![1, 32]⟩
abbrev S_ : Shape := ⟨0, ![]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S6x64 : Shape := ⟨2, ![6, 64]⟩
abbrev S128x64 : Shape := ⟨2, ![128, 64]⟩
abbrev S1x64 : Shape := ⟨2, ![1, 64]⟩
abbrev S128x1x64 : Shape := ⟨3, ![128, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S128x8192x64, .f32⟩
  | .hbm, ⟨1, _⟩ => ⟨S128x6, .f32⟩
  | .hbm, ⟨2, _⟩ => ⟨S32x6, .f32⟩
  | .hbm, ⟨3, _⟩ => ⟨S32, .f32⟩
  | .hbm, ⟨4, _⟩ => ⟨S4096x32, .f32⟩
  | .hbm, ⟨5, _⟩ => ⟨S4096, .f32⟩
  | .hbm, ⟨6, _⟩ => ⟨S64x6, .f32⟩
  | .hbm, ⟨7, _⟩ => ⟨S64, .f32⟩
  | .hbm, ⟨8, _⟩ => ⟨S6x32, .f32⟩
  | .hbm, ⟨9, _⟩ => ⟨S128x32, .f32⟩
  | .hbm, ⟨10, _⟩ => ⟨S1x32, .f32⟩
  | .hbm, ⟨11, _⟩ => ⟨S128x32, .f32⟩
  | .hbm, ⟨12, _⟩ => ⟨S128x32, .f32⟩
  | .hbm, ⟨13, _⟩ => ⟨S_, .f32⟩
  | .hbm, ⟨14, _⟩ => ⟨S128x32, .f32⟩
  | .hbm, ⟨15, _⟩ => ⟨S128x32, .f32⟩
  | .hbm, ⟨16, _⟩ => ⟨S32x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x64x64, .f32⟩
  | .hbm, ⟨22, _⟩ => ⟨S6x64, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x8192x64, .f32⟩
  | .hbm, ⟨28, _⟩ => ⟨S128x1x64, .f32⟩
  | .hbm, ⟨29, _⟩ => ⟨S128x8192x64, .f32⟩
  | .hbm, ⟨30, _⟩ => ⟨S128x8192x64, .f32⟩
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S32x6_S6x32_1_0 : S32x6.Transposes [1, 0] S6x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x6_S6x64_1_0 : S64x6.Transposes [1, 0] S6x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x1x64_0_2 : S128x64.BroadcastsInDim S128x1x64 (![0, 2] : Fin 2 → Fin S128x1x64.rank)
  bcast_S128x1x64_S128x8192x64_0_1_2 : S128x1x64.BroadcastsInDim S128x8192x64 (![0, 1, 2] : Fin 3 → Fin S128x8192x64.rank)
  dot_S128x6_S6x32_S128x32_1_0_0_1_n_n_wf : DotDims.WF S128x6 S6x32 S128x32 [1] [0] [0] [1] [] []
  dot_S128x32_S32x4096_S128x4096_1_0_0_1_n_n_wf : DotDims.WF S128x32 S32x4096 S128x4096 [1] [0] [0] [1] [] []
  dot_S128x6_S6x64_S128x64_1_0_0_1_n_n_wf : DotDims.WF S128x6 S6x64 S128x64 [1] [0] [0] [1] [] []
  dot_S128x8192x64_S128x64x64_S128x8192x64_2_2_1_1_0_0_wf : DotDims.WF S128x8192x64 S128x64x64 S128x8192x64 [2] [2] [1] [1] [0] [0]

variable [Facts₀]

def dot_S128x6_S6x32_S128x32_1_0_0_1_n_n : DotDims S128x6 S6x32 S128x32 where
  lhsContracting := [1]
  rhsContracting := [0]
  lhsNonContracting := [0]
  rhsNonContracting := [1]
  lhsBatch := []
  rhsBatch := []
  wf := dot_S128x6_S6x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x6_S6x64_S128x64_1_0_0_1_n_n : DotDims S128x6 S6x64 S128x64 where
  lhsContracting := [1]
  rhsContracting := [0]
  lhsNonContracting := [0]
  rhsNonContracting := [1]
  lhsBatch := []
  rhsBatch := []
  wf := dot_S128x6_S6x64_S128x64_1_0_0_1_n_n_wf
def dot_S128x8192x64_S128x64x64_S128x8192x64_2_2_1_1_0_0 : DotDims S128x8192x64 S128x64x64 S128x8192x64 where
  lhsContracting := [2]
  rhsContracting := [2]
  lhsNonContracting := [1]
  rhsNonContracting := [1]
  lhsBatch := [0]
  rhsBatch := [0]
  wf := dot_S128x8192x64_S128x64x64_S128x8192x64_2_2_1_1_0_0_wf

class Facts : Prop extends Facts₀ where

variable [Facts]
-- ==== Proof.BodyPay.lean ====
/-
  What one grid step computes.  The body loads a block of two packed batches `x0 : [2, 4096, 128]`, the two block-diagonal
  weights `x1 : [2, 128, 128]` and the two repeated biases `x2 : [2, 1, 128]`, and stores
  `x0 ·ₖ x1 + x2` (a batched product contracted over the 128 lanes, the bias broadcast along the 4096 rows).
  On the extended reals the roundings to bf16 on the way into the product are the identity and the product into a zero
  accumulator is the plain sum, so entry `(p, i, l)` of the stored block is
  `∑ k, x0[p, i, k] · x1[p, k, l] + x2[p, 0, l]`.
-/
import proofs.«120307_j28802050687329_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The batched product's dimension record: batch axis 0 on both sides, the left operand's lanes contracted with the
    right operand's rows. -/
abbrev D : DotDims S2x4096x128 S2x128x128 S2x4096x128 := dot_S2x4096x128_S2x128x128_S2x4096x128_2_1_1_2_0_0

theorem lhs0 (j : S2x4096x128.Idx) (q : D.contr.Idx) : (D.lhsIdx j q 0).val = (j 0).val := by
  unfold DotDims.lhsIdx
  rw [dif_pos (show (0 : Fin S2x4096x128.rank) ∈ D.lhsBatch by decide)]
  rfl
theorem lhs1 (j : S2x4096x128.Idx) (q : D.contr.Idx) : (D.lhsIdx j q 1).val = (j 1).val := by
  unfold DotDims.lhsIdx
  rw [dif_neg (show ¬(1 : Fin S2x4096x128.rank) ∈ D.lhsBatch by decide),
    dif_pos (show (1 : Fin S2x4096x128.rank) ∈ D.lhsNonContracting by decide)]
  rfl
theorem lhs2 (j : S2x4096x128.Idx) (q : D.contr.Idx) : (D.lhsIdx j q 2).val = (q ⟨0, by decide⟩).val :=
  D.lhsIdx_val_of_single rfl j q
theorem rhs0 (j : S2x4096x128.Idx) (q : D.contr.Idx) : (D.rhsIdx j q 0).val = (j 0).val := by
  unfold DotDims.rhsIdx
  rw [dif_pos (show (0 : Fin S2x128x128.rank) ∈ D.rhsBatch by decide)]
  rfl
theorem rhs1 (j : S2x4096x128.Idx) (q : D.contr.Idx) : (D.rhsIdx j q 1).val = (q ⟨0, by decide⟩).val :=
  D.rhsIdx_val_of_single rfl j q
theorem rhs2 (j : S2x4096x128.Idx) (q : D.contr.Idx) : (D.rhsIdx j q 2).val = (j 2).val := by
  unfold DotDims.rhsIdx
  rw [dif_neg (show ¬(2 : Fin S2x128x128.rank) ∈ D.rhsBatch by decide),
    dif_pos (show (2 : Fin S2x128x128.rank) ∈ D.rhsNonContracting by decide)]
  rfl

/-- The batched product into a zero accumulator, at an entry: the sum over the 128 contracted lanes. -/
theorem product_apply (A : FVec Ideal S2x4096x128 .bf16) (B : FVec Ideal S2x128x128 .bf16)
    (p : Fin 2) (i : Fin 4096) (l : Fin 128) :
    matmul D none A B (constant S2x4096x128 .f32 0x00000000#32) (ix3 p i l)
      = ∑ k : Fin 128, A (ix3 p i k) * B (ix3 p k l) := by
  refine (Ideal.matmul_constant_zero_apply D none A B (ix3 p i l)).trans ?_
  rw [← Equiv.sum_comp (contrEquiv1 D 128 rfl rfl).symm]
  refine Finset.sum_congr rfl fun k _ => ?_
  have hk := contrEquiv1_symm_val D 128 rfl rfl k
  have el : D.lhsIdx (ix3 p i l) ((contrEquiv1 D 128 rfl rfl).symm k) = ix3 p i k := funext fun a => Fin.ext (by
    match a with
    | ⟨0, _⟩ => exact lhs0 _ _
    | ⟨1, _⟩ => exact lhs1 _ _
    | ⟨2, _⟩ => exact (lhs2 _ _).trans hk)
  have er : D.rhsIdx (ix3 p i l) ((contrEquiv1 D 128 rfl rfl).symm k) = ix3 p k l := funext fun a => Fin.ext (by
    match a with
    | ⟨0, _⟩ => exact rhs0 _ _
    | ⟨1, _⟩ => exact (rhs1 _ _).trans hk
    | ⟨2, _⟩ => exact rhs2 _ _)
  rw [el, er]

/-- The bias block `[2, 1, 128]` broadcast along the rows, at an entry. -/
theorem bias_apply (b2 : FVec Ideal S2x1x128 .f32) (p : Fin 2) (i : Fin 4096) (l : Fin 128) :
    broadcastTo S2x4096x128 b2 broadcasts_S2x1x128_S2x4096x128 (ix3 p i l) = b2 (ix3 p (0 : Fin 1) l) :=
  broadcastTo_apply b2 broadcasts_S2x1x128_S2x4096x128 (ix3 p i l) (ix3 p (0 : Fin 1) l) (fun a => by
    match a with
    | ⟨0, _⟩ => rfl
    | ⟨1, _⟩ => rfl
    | ⟨2, _⟩ => rfl)

/-- THE STORED BLOCK at an entry. -/
theorem pay_apply (x0 : Vec Ideal S2x4096x128 .f32) (x1 : Vec Ideal S2x128x128 .f32) (x2 : Vec Ideal S2x1x128 .f32)
    (p : Fin 2) (i : Fin 4096) (l : Fin 128) :
    k0_pay1 (F := Ideal) x0 x1 x2 (ix3 p i l)
      = (∑ k : Fin 128, x0 (ix3 p i k) * x1 (ix3 p k l)) + x2 (ix3 p (0 : Fin 1) l) := by
  unfold k0_pay1
  rw [shapeCast_self, shapeCast_self, shapeCast_self]
  refine (addf_apply _ _ _).trans ?_
  rw [bias_apply]
  exact congrArg (· + x2 (ix3 p (0 : Fin 1) l)) (product_apply _ _ p i l)

end Cert.KernelIdeal.Body

end
-- ==== Proof.Blocks.lean ====
/-
  From the grid steps to the whole array.  Grid step `t` (of 64) works on batches `2 t` and `2 t + 1`: it reads rows
  `2 t, 2 t + 1` (along the leading axis) of the packed input, of the block-diagonal weight and of the repeated bias, and
  writes the same two rows of the result.  Since every operand moves with the result along that axis only, the block a
  step writes is the restriction of ONE function of the whole arrays,
      P[b, i, l] = ∑ k, X2[b, i, k] · WBD[b, k, l] + B3[b, 0, l],
  and the 64 blocks tile the result: after the run the result array IS `P`.
-/
import proofs.«120307_j28802050687329_2_alg».proof.Proof.Gen.KernelIdeal.Frame
import proofs.«120307_j28802050687329_2_alg».proof.Proof.BodyPay
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The packed product at an entry, from the three whole operand arrays. -/
def packedAt (X2 : S128x4096x128.Idx → EReal) (WBD : S128x128x128.Idx → EReal) (B3 : S128x1x128.Idx → EReal)
    (b : Fin 128) (i : Fin 4096) (l : Fin 128) : EReal :=
  (∑ k : Fin 128, X2 (ix3 b i k) * WBD (ix3 b k l)) + B3 (ix3 b (0 : Fin 1) l)

/-- The packed product as an array. -/
def packedProduct (X2 : S128x4096x128.Idx → EReal) (WBD : S128x128x128.Idx → EReal) (B3 : S128x1x128.Idx → EReal) :
    S128x4096x128.Idx → EReal :=
  fun j => packedAt X2 WBD B3 (j 0) (j 1) (j 2)

/-- One step's stored block is the packed product of the whole arrays at the block's place: stated over a block `x0, x1, x2`
    that reads the whole arrays at batches `2 T + p`, an entry `y` of the block and the array entry `e` it sits at. -/
theorem step_eq (x0 : Vec Ideal S2x4096x128 .f32) (x1 : Vec Ideal S2x128x128 .f32) (x2 : Vec Ideal S2x1x128 .f32)
    (X2 : S128x4096x128.Idx → EReal) (WBD : S128x128x128.Idx → EReal) (B3 : S128x1x128.Idx → EReal)
    (T : Nat) (hT : 2 * T + 1 < 128) (y : S2x4096x128.Idx) (e : S128x4096x128.Idx)
    (he0 : (e 0).val = 2 * T + (y 0).val) (he1 : (e 1).val = (y 1).val) (he2 : (e 2).val = (y 2).val)
    (h0 : ∀ (p : Fin 2) (i : Fin 4096) (k : Fin 128), x0 (ix3 p i k) = X2 (ix3 ⟨2 * T + p.val, by have := p.isLt; omega⟩ i k))
    (h1 : ∀ (p : Fin 2) (k l : Fin 128), x1 (ix3 p k l) = WBD (ix3 ⟨2 * T + p.val, by have := p.isLt; omega⟩ k l))
    (h2 : ∀ (p : Fin 2) (l : Fin 128), x2 (ix3 p (0 : Fin 1) l) = B3 (ix3 ⟨2 * T + p.val, by have := p.isLt; omega⟩ (0 : Fin 1) l)) :
    k0_pay1 (F := Ideal) x0 x1 x2 y = packedProduct X2 WBD B3 e := by
  obtain ⟨p, i, l, rfl⟩ : ∃ (p : Fin 2) (i : Fin 4096) (l : Fin 128), y = ix3 p i l := ⟨y 0, y 1, y 2, eq_ix3 y⟩
  have he : e = ix3 ⟨2 * T + p.val, by have := p.isLt; omega⟩ i l := funext fun a => Fin.ext (by
    match a with
    | ⟨0, _⟩ => exact he0
    | ⟨1, _⟩ => exact he1
    | ⟨2, _⟩ => exact he2)
  rw [he, Body.pay_apply, h2]
  show _ = packedAt X2 WBD B3 _ _ _
  unfold packedAt
  refine congrArg (· + B3 _) (Finset.sum_congr rfl fun k _ => ?_)
  rw [h0, h1]

variable (m : (ℓ : Loc nD τ sig) → Buf (Elt Ideal) ℓ)

theorem hz : (![0, 0, 0] : Fin 3 → Nat) = fun _ => 0 := funext fun a => by fin_cases a <;> rfl

/-- The printed index maps over the 64 grid steps: every window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- WHAT STEP `t` WRITES BACK is block `t` of the packed product of the operand arrays as the region finds them. -/
theorem flushed_eq (c : Dev nD) (t : Fin cfg0.N) :
    (dats m 0 c).flushed 3 t = ((cfg0.win 3).blk t).view.read (Elt Ideal)
      (packedProduct (V m c main_v17) (V m c main_v22) (V m c main_v24)) := by
  show (cfg0.win 3).cut (grid0.coords t) ((dats m 0 c).after 3 t) = _
  rw [after0_3]
  unfold out0_3
  rw [View.canon_unit_zero hz]
  simp only [View.ld_unit_zero (S := S2x4096x128) hz, View.ld_unit_zero (S := S2x128x128) hz, View.ld_unit_zero (S := S2x1x128) hz]
  obtain ⟨a00, a01, a02, a10, a11, a12, a20, a21, a22, a30, a31, a32⟩ := idx_facts t
  have ht : t.val < 64 := by have := t.isLt; have hN : cfg0.N = 64 := N_0; omega
  funext j
  show k0_pay1 (F := Ideal) (iblk m c 0 t) (iblk m c 1 t) (iblk m c 2 t) j
    = packedProduct (V m c main_v17) (V m c main_v22) (V m c main_v24) (((cfg0.win 3).blk t).view.emb j)
  have h0 : ∀ (p : Fin 2) (i : Fin 4096) (k : Fin 128),
      iblk m c 0 t (ix3 p i k) = V m c main_v17 (ix3 ⟨2 * t.val + p.val, by have := p.isLt; omega⟩ i k) := fun p i k => by
    show V m c main_v17 (((cfg0.win 0).blk t).view.emb (ix3 p i k)) = _
    refine congrArg (V m c main_v17) (funext fun a => Fin.ext ?_)
    match a with
    | ⟨0, _⟩ => show win0_0.index t (0 : Fin 3) * 2 + 1 * p.val = 2 * t.val + p.val; omega
    | ⟨1, _⟩ => show win0_0.index t (1 : Fin 3) * 4096 + 1 * i.val = i.val; omega
    | ⟨2, _⟩ => show win0_0.index t (2 : Fin 3) * 128 + 1 * k.val = k.val; omega
  have h1 : ∀ (p : Fin 2) (k l : Fin 128),
      iblk m c 1 t (ix3 p k l) = V m c main_v22 (ix3 ⟨2 * t.val + p.val, by have := p.isLt; omega⟩ k l) := fun p k l => by
    show V m c main_v22 (((cfg0.win 1).blk t).view.emb (ix3 p k l)) = _
    refine congrArg (V m c main_v22) (funext fun a => Fin.ext ?_)
    match a with
    | ⟨0, _⟩ => show win0_1.index t (0 : Fin 3) * 2 + 1 * p.val = 2 * t.val + p.val; omega
    | ⟨1, _⟩ => show win0_1.index t (1 : Fin 3) * 128 + 1 * k.val = k.val; omega
    | ⟨2, _⟩ => show win0_1.index t (2 : Fin 3) * 128 + 1 * l.val = l.val; omega
  have h2 : ∀ (p : Fin 2) (l : Fin 128),
      iblk m c 2 t (ix3 p (0 : Fin 1) l) = V m c main_v24 (ix3 ⟨2 * t.val + p.val, by have := p.isLt; omega⟩ (0 : Fin 1) l) := fun p l => by
    show V m c main_v24 (((cfg0.win 2).blk t).view.emb (ix3 p (0 : Fin 1) l)) = _
    refine congrArg (V m c main_v24) (funext fun a => Fin.ext ?_)
    match a with
    | ⟨0, _⟩ => show win0_2.index t (0 : Fin 3) * 2 + 1 * p.val = 2 * t.val + p.val; omega
    | ⟨1, _⟩ => show win0_2.index t (1 : Fin 3) * 1 + 1 * 0 = 0; omega
    | ⟨2, _⟩ => show win0_2.index t (2 : Fin 3) * 128 + 1 * l.val = l.val; omega
  exact step_eq (iblk m c 0 t) (iblk m c 1 t) (iblk m c 2 t) (V m c main_v17) (V m c main_v22) (V m c main_v24)
    t.val (by omega) j (((cfg0.win 3).blk t).view.emb j)
    (by show win0_3.index t (0 : Fin 3) * 2 + 1 * (j 0).val = 2 * t.val + (j 0).val; omega)
    (by show win0_3.index t (1 : Fin 3) * 4096 + 1 * (j 1).val = (j 1).val; omega)
    (by show win0_3.index t (2 : Fin 3) * 128 + 1 * (j 2).val = (j 2).val; omega)
    h0 h1 h2

/-- An entry of the result array is in step `t`'s block iff each coordinate is in the block's range on its axis. -/
theorem mem_blk (t : Fin cfg0.N) (i : S128x4096x128.Idx) :
    i ∈ ((cfg0.win 3).blk t).view.set ↔ ∀ a : Fin 3, win0_3.index t a * S2x4096x128.size a ≤ (i a).val
      ∧ (i a).val < win0_3.index t a * S2x4096x128.size a + S2x4096x128.size a := by
  show i ∈ ((View.whole main_v25).slice (win0_3.rect t)).set ↔ _
  rw [View.set_slice_whole, Rect.mem_set_unit]
  exact Iff.rfl

/-- Every entry is in some step's block: batch `b` is written by step `b / 2`. -/
theorem cover (i : S128x4096x128.Idx) :
    ∃ t : Fin cfg0.N, (cfg0.win 3).flush t = true ∧ i ∈ ((cfg0.win 3).blk t).view.set := by
  have hi0 : (i 0).val < 128 := (i 0).isLt
  have hi1 : (i 1).val < 4096 := (i 1).isLt
  have hi2 : (i 2).val < 128 := (i 2).isLt
  have hN : cfg0.N = 64 := N_0
  let t : Fin cfg0.N := ⟨(i 0).val / 2, by rw [hN]; omega⟩
  have htv : t.val = (i 0).val / 2 := rfl
  obtain ⟨a00, a01, a02, a10, a11, a12, a20, a21, a22, a30, a31, a32⟩ := idx_facts t
  refine ⟨t, flush0_3 t, ?_⟩
  rw [mem_blk]
  intro a
  match a with
  | ⟨0, _⟩ =>
    show win0_3.index t (0 : Fin 3) * 2 ≤ (i 0).val ∧ (i 0).val < win0_3.index t (0 : Fin 3) * 2 + 2
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 128 ≤ (i 2).val ∧ (i 2).val < win0_3.index t (2 : Fin 3) * 128 + 128
    omega

/-- THE RESULT ARRAY after the run is the packed product of the operand arrays as the region finds them. -/
theorem final (c : Dev nD) :
    (dats m 0 c).arrAt 3 cfg0.N = packedProduct (V m c main_v17) (V m c main_v22) (V m c main_v24) :=
  (dats m 0 c).arrAt_eq_of_cover 3 _ (fun t _ => flushed_eq m c t) cover

end Cert.KernelIdeal.Blocks

end
-- ==== Proof.PackedSum.lean ====
/-
  The arithmetic behind packing two rows into one: a row of 128 lanes holds two consecutive rows of 64 channels, and
  the packed weight is block diagonal — entry (k, l) of the 128 × 128 matrix is the original weight W[l mod 64, k mod 64]
  when k and l lie in the same half, and zero otherwise.  A contraction over the 128 lanes against that matrix therefore
  splits into the two halves; the half that meets the zero block contributes nothing (a product with zero is zero on the
  extended reals, whatever the other factor), and the other half is the original contraction over 64 channels.
-/
import Idealize.ShloMosaic.PureOps.Ideal
import Idealize.ShloMosaic.Lib.ValueIdx

noncomputable section

namespace PackedConv

open Idealize.ShloMosaic Idealize.ShloMosaic.ValueIdx

/-- The channel a lane carries: lane `k` of a packed row is channel `k mod 64` of one of the two rows. -/
def lo (k : Fin 128) : Fin 64 := ⟨k.val % 64, by omega⟩

/-- The original row a lane of packed row `i` comes from: row `2 i` for the low half, `2 i + 1` for the high half. -/
def row (i : Fin 4096) (k : Fin 128) : Fin 8192 := ⟨2 * i.val + k.val / 64, by have := i.isLt; have := k.isLt; omega⟩

/-- The packed row that holds original row `w`. -/
def pairOf (w : Fin 8192) : Fin 4096 := ⟨w.val / 2, by have := w.isLt; omega⟩

/-- The lane of the packed row at which channel `o` of original row `w` sits. -/
def laneOf (w : Fin 8192) (o : Fin 64) : Fin 128 := ⟨(w.val % 2) * 64 + o.val, by have := o.isLt; omega⟩

theorem lo_laneOf (w : Fin 8192) (o : Fin 64) : lo (laneOf w o) = o :=
  Fin.ext (by show ((w.val % 2) * 64 + o.val) % 64 = o.val; have := o.isLt; omega)

theorem half_laneOf (w : Fin 8192) (o : Fin 64) : (laneOf w o).val / 64 = w.val % 2 := by
  show ((w.val % 2) * 64 + o.val) / 64 = _; have := o.isLt; omega

theorem row_pairOf (w : Fin 8192) (k : Fin 128) (hk : k.val / 64 = w.val % 2) : row (pairOf w) k = w :=
  Fin.ext (by show 2 * (w.val / 2) + k.val / 64 = w.val; omega)

/-- A sum over the 128 lanes of a summand that vanishes outside half `a` is the sum over the 64 channels of that half. -/
theorem sum_lane_half (a : Nat) (ha : a < 2) (g : Fin 64 → EReal) :
    (∑ k : Fin 128, if k.val / 64 = a then g (lo k) else 0) = ∑ c : Fin 64, g c := by
  have h := Fin.sum_univ_add (a := 64) (b := 64) (fun k : Fin 128 => if k.val / 64 = a then g (lo k) else 0)
  refine h.trans ?_
  have hlo1 : ∀ c : Fin 64, lo (Fin.castAdd 64 c) = c := fun c =>
    Fin.ext (by show c.val % 64 = c.val; have := c.isLt; omega)
  have hlo2 : ∀ c : Fin 64, lo (Fin.natAdd 64 c) = c := fun c =>
    Fin.ext (by show (64 + c.val) % 64 = c.val; have := c.isLt; omega)
  have hq1 : ∀ c : Fin 64, (Fin.castAdd 64 c).val / 64 = 0 := fun c => by
    show c.val / 64 = 0; have := c.isLt; omega
  have hq2 : ∀ c : Fin 64, (Fin.natAdd 64 c).val / 64 = 1 := fun c => by
    show (64 + c.val) / 64 = 1; have := c.isLt; omega
  simp only [hlo1, hlo2, hq1, hq2]
  rcases (by omega : a = 0 ∨ a = 1) with rfl | rfl
  · simp
  · simp

/-- The product the reference computes, at an entry: `∑ c, x[b, w, c] · W[b, o, c] + bias[b, o]`. -/
def convAt (x : (⟨3, ![128, 8192, 64]⟩ : Shape).Idx → EReal) (W : (⟨3, ![128, 64, 64]⟩ : Shape).Idx → EReal)
    (bias : (⟨2, ![128, 64]⟩ : Shape).Idx → EReal) (b : Fin 128) (w : Fin 8192) (o : Fin 64) : EReal :=
  (∑ c : Fin 64, x (ix3 b w c) * W (ix3 b o c)) + bias (ix2 b o)

/-- … and as an array `[128, 8192, 64]`. -/
def convArr (x : (⟨3, ![128, 8192, 64]⟩ : Shape).Idx → EReal) (W : (⟨3, ![128, 64, 64]⟩ : Shape).Idx → EReal)
    (bias : (⟨2, ![128, 64]⟩ : Shape).Idx → EReal) : (⟨3, ![128, 8192, 64]⟩ : Shape).Idx → EReal :=
  fun j => convAt x W bias (j 0) (j 1) (j 2)

/-- THE LAW.  Let `X2` be `x` with each pair of consecutive rows laid side by side, `WBD` the block-diagonal packing of
    `W` (transposed), and `B3` the bias repeated in both halves.  Then the packed product, read at the packed position
    of entry `(b, w, o)`, is the original product `∑ c, x[b, w, c] · W[b, o, c] + bias[b, o]`. -/
theorem packed_eq
    (x : (⟨3, ![128, 8192, 64]⟩ : Shape).Idx → EReal) (W : (⟨3, ![128, 64, 64]⟩ : Shape).Idx → EReal)
    (bias : (⟨2, ![128, 64]⟩ : Shape).Idx → EReal)
    (X2 : (⟨3, ![128, 4096, 128]⟩ : Shape).Idx → EReal) (WBD : (⟨3, ![128, 128, 128]⟩ : Shape).Idx → EReal)
    (B3 : (⟨3, ![128, 1, 128]⟩ : Shape).Idx → EReal)
    (hX : ∀ (b : Fin 128) (i : Fin 4096) (k : Fin 128), X2 (ix3 b i k) = x (ix3 b (row i k) (lo k)))
    (hW : ∀ (b : Fin 128) (k l : Fin 128),
      WBD (ix3 b k l) = if k.val / 64 = l.val / 64 then W (ix3 b (lo l) (lo k)) else 0)
    (hB : ∀ (b : Fin 128) (l : Fin 128), B3 (ix3 b (0 : Fin 1) l) = bias (ix2 b (lo l)))
    (b : Fin 128) (w : Fin 8192) (o : Fin 64) :
    (∑ k : Fin 128, X2 (ix3 b (pairOf w) k) * WBD (ix3 b k (laneOf w o))) + B3 (ix3 b (0 : Fin 1) (laneOf w o))
      = convAt x W bias b w o := by
  unfold convAt
  rw [hB, lo_laneOf]
  congr 1
  refine (Finset.sum_congr rfl fun k _ => ?_).trans
    (sum_lane_half (w.val % 2) (by omega) (fun c => x (ix3 b w c) * W (ix3 b o c)))
  rw [hX, hW, lo_laneOf, half_laneOf]
  by_cases hk : k.val / 64 = w.val % 2
  · rw [if_pos hk, if_pos hk, row_pairOf w k hk]
  · rw [if_neg hk, if_neg hk, mul_zero]

end PackedConv

end
-- ==== Proof.HostPack.lean ====
/-
  The host operations around the product, as functions and read at an entry (on the extended reals).
  * `hyperW`, `hyperB`: the small network that makes the per-batch weight `W : [128, 64, 64]` and bias `[128, 64]` from
    the parameters — carried as two opaque functions; nothing here looks inside them.
  * `packRows`: `x : [128, 8192, 64]` viewed as `[128, 4096, 128]`; packed row `i` is rows `2 i` and `2 i + 1` side by side.
  * `blockDiag`: the transposed weight placed twice on the diagonal of a `128 × 128` matrix, zeros elsewhere.
  * `dupBias`: the bias written twice along the lanes, as `[128, 1, 128]`.
  * `unpackRows`: the inverse view of the product, back to `[128, 8192, 64]`.
-/
import proofs.«120307_j28802050687329_2_alg».proof.Proof.Gen.KernelIdeal
import proofs.«120307_j28802050687329_2_alg».proof.Proof.PackedSum
import Idealize.ShloMosaic.Lib.Pipeline.Value
import Idealize.ShloMosaic.Lib.ValueIdx
import Idealize.ShloMosaic.PureOps.Ideal.Laws

noncomputable section

namespace Cert.KernelIdeal.Host

open Cert.KernelIdeal Cert.KernelIdeal.Gen Idealize.ShloMosaic Idealize.ShloMosaic.ValueIdx PackedConv

section Defs
variable {F : FTy → Type} [FloatOps F]

/-- The weight the small network produces: `relu(params · fc1_wᵀ + fc1_b) · fc2_wᵀ + fc2_b`, viewed as `[128, 64, 64]`. -/
def hyperW (x1 : FVec F S128x6 .f32) (x2 : FVec F S32x6 .f32) (x3 : FVec F S32 .f32) (x4 : FVec F S4096x32 .f32)
    (x5 : FVec F S4096 .f32) : FVec F S128x64x64 .f32 :=
  shapeCast S128x64x64
    (addf
      (Host.dotGeneral dot_S128x32_S32x4096_S128x4096_1_0_0_1_n_n none
        (maximumf
          (addf (Host.dotGeneral dot_S128x6_S6x32_S128x32_1_0_0_1_n_n none x1 (transpose S6x32 [1, 0] x2 transposes_S32x6_S6x32_1_0))
            (broadcastInDim S128x32 ![0, 1] bcast_S1x32_S128x32_0_1 (broadcastInDim S1x32 ![1] bcast_S32_S1x32_1 x3)))
          (broadcastInDim S128x32 ![] bcast_S_S128x32 (constant S_ .f32 0x00000000#32)))
        (transpose S32x4096 [1, 0] x4 transposes_S4096x32_S32x4096_1_0))
      (broadcastInDim S128x4096 ![0, 1] bcast_S1x4096_S128x4096_0_1 (broadcastInDim S1x4096 ![1] bcast_S4096_S1x4096_1 x5)))
    shapeCasts_S128x4096_S128x64x64

/-- The bias the small network produces: `params · biasfc_wᵀ + biasfc_b`. -/
def hyperB (x1 : FVec F S128x6 .f32) (x6 : FVec F S64x6 .f32) (x7 : FVec F S64 .f32) : FVec F S128x64 .f32 :=
  addf (Host.dotGeneral dot_S128x6_S6x64_S128x64_1_0_0_1_n_n none x1 (transpose S6x64 [1, 0] x6 transposes_S64x6_S6x64_1_0))
    (broadcastInDim S128x64 ![0, 1] bcast_S1x64_S128x64_0_1 (broadcastInDim S1x64 ![1] bcast_S64_S1x64_1 x7))

/-- Two consecutive rows of 64 channels side by side in one row of 128 lanes. -/
def packRows (x : FVec F S128x8192x64 .f32) : FVec F S128x4096x128 .f32 :=
  shapeCast S128x4096x128 x shapeCasts_S128x8192x64_S128x4096x128

/-- The inverse view. -/
def unpackRows (y : FVec F S128x4096x128 .f32) : FVec F S128x8192x64 .f32 :=
  shapeCast S128x8192x64 y shapeCasts_S128x4096x128_S128x8192x64

/-- A `[128, 64, 64]` array of zeros. -/
def zeros : FVec F S128x64x64 .f32 := broadcastInDim S128x64x64 ![] bcast_S_S128x64x64 (constant S_ .f32 0x00000000#32)

/-- The transposed weight twice on the diagonal: `[[Wᵀ, 0], [0, Wᵀ]]` per batch. -/
def blockDiag (W : FVec F S128x64x64 .f32) : FVec F S128x128x128 .f32 :=
  concatenate S128x128x128 1
    [⟨S128x64x128, concatenate S128x64x128 2
        [⟨S128x64x64, transpose S128x64x64 [0, 2, 1] W transposes_S128x64x64_S128x64x64_0_2_1⟩, ⟨S128x64x64, zeros⟩]
        concatenates_S128x64x64_S128x64x64_S128x64x128_d2⟩,
     ⟨S128x64x128, concatenate S128x64x128 2
        [⟨S128x64x64, zeros⟩, ⟨S128x64x64, transpose S128x64x64 [0, 2, 1] W transposes_S128x64x64_S128x64x64_0_2_1⟩]
        concatenates_S128x64x64_S128x64x64_S128x64x128_d2⟩]
    concatenates_S128x64x128_S128x64x128_S128x128x128_d1

/-- The bias twice along the lanes. -/
def dupBias (B : FVec F S128x64 .f32) : FVec F S128x1x128 .f32 :=
  shapeCast S128x1x128 (concatenate S128x128 1 [⟨S128x64, B⟩, ⟨S128x64, B⟩] concatenates_S128x64_S128x64_S128x128_d1)
    shapeCasts_S128x128_S128x1x128

end Defs

/-! ## Read at an entry -/

theorem packRows_apply (x : FVec Ideal S128x8192x64 .f32) (b : Fin 128) (i : Fin 4096) (k : Fin 128) :
    packRows x (ix3 b i k) = x (ix3 b (row i k) (lo k)) := by
  unfold packRows
  refine shapeCast_apply x _ (ix3 b i k) (ix3 b (row i k) (lo k)) ?_
  rw [Shape.rowMajor_val_three, Shape.rowMajor_val_three]
  show (b.val * 8192 + (2 * i.val + k.val / 64)) * 64 + k.val % 64 = (b.val * 4096 + i.val) * 128 + k.val
  omega

theorem unpackRows_apply (y : FVec Ideal S128x4096x128 .f32) (b : Fin 128) (w : Fin 8192) (o : Fin 64) :
    unpackRows y (ix3 b w o) = y (ix3 b (pairOf w) (laneOf w o)) := by
  unfold unpackRows
  refine shapeCast_apply y _ (ix3 b w o) (ix3 b (pairOf w) (laneOf w o)) ?_
  rw [Shape.rowMajor_val_three, Shape.rowMajor_val_three]
  show (b.val * 4096 + w.val / 2) * 128 + (w.val % 2 * 64 + o.val) = (b.val * 8192 + w.val) * 64 + o.val
  omega

theorem zeros_apply (j : S128x64x64.Idx) : zeros (F := Ideal) j = 0 := by
  unfold zeros
  refine (broadcastInDim_apply _ bcast_S_S128x64x64 _ j ix0 (fun a => a.elim0)).trans ?_
  exact (constant_apply _ _).trans Ideal.ofBits_zero_f32

theorem transposed_apply (W : FVec Ideal S128x64x64 .f32) (b : Fin 128) (c o : Fin 64) :
    transpose S128x64x64 [0, 2, 1] W transposes_S128x64x64_S128x64x64_0_2_1 (ix3 b c o) = W (ix3 b o c) :=
  transpose_apply [0, 2, 1] W transposes_S128x64x64_S128x64x64_0_2_1 (ix3 b c o) (ix3 b o c) (fun a => by
    match a with
    | ⟨0, _⟩ => rfl
    | ⟨1, _⟩ => rfl
    | ⟨2, _⟩ => rfl)

/-- Two `[128, 64, 64]` arrays side by side along the lanes: the low half of the lanes reads the first. -/
theorem lanes_low (A B : FVec Ideal S128x64x64 .f32) (b : Fin 128) (c : Fin 64) (l : Fin 128) (hl : l.val < 64) :
    concatenate S128x64x128 2 [⟨S128x64x64, A⟩, ⟨S128x64x64, B⟩] concatenates_S128x64x64_S128x64x64_S128x64x128_d2 (ix3 b c l)
      = A (ix3 b c ⟨l.val, hl⟩) :=
  concatenate_pair_apply_left 2 A B _ (ix3 b c l) rfl (ix3 b c ⟨l.val, hl⟩) (fun a => by
    match a with
    | ⟨0, _⟩ => rfl
    | ⟨1, _⟩ => rfl
    | ⟨2, _⟩ => rfl)

/-- … and the high half the second. -/
theorem lanes_high (A B : FVec Ideal S128x64x64 .f32) (b : Fin 128) (c : Fin 64) (l : Fin 128) (hl : 64 ≤ l.val) :
    concatenate S128x64x128 2 [⟨S128x64x64, A⟩, ⟨S128x64x64, B⟩] concatenates_S128x64x64_S128x64x64_S128x64x128_d2 (ix3 b c l)
      = B (ix3 b c ⟨l.val - 64, by have := l.isLt; omega⟩) :=
  concatenate_pair_apply_right 2 A B _ (ix3 b c l) rfl rfl (ix3 b c ⟨l.val - 64, by have := l.isLt; omega⟩) (fun a ha => by
    match a, ha with
    | ⟨0, _⟩, _ => rfl
    | ⟨1, _⟩, _ => rfl
    | ⟨2, _⟩, ha => exact absurd rfl ha) (by show l.val - 64 + 64 = l.val; omega)

/-- Two `[128, 64, 128]` arrays stacked along the rows: the first 64 rows read the first. -/
theorem rows_low (A B : FVec Ideal S128x64x128 .f32) (b : Fin 128) (k l : Fin 128) (hk : k.val < 64) :
    concatenate S128x128x128 1 [⟨S128x64x128, A⟩, ⟨S128x64x128, B⟩] concatenates_S128x64x128_S128x64x128_S128x128x128_d1 (ix3 b k l)
      = A (ix3 b ⟨k.val, hk⟩ l) :=
  concatenate_pair_apply_left 1 A B _ (ix3 b k l) rfl (ix3 b ⟨k.val, hk⟩ l) (fun a => by
    match a with
    | ⟨0, _⟩ => rfl
    | ⟨1, _⟩ => rfl
    | ⟨2, _⟩ => rfl)

/-- … and the last 64 rows the second. -/
theorem rows_high (A B : FVec Ideal S128x64x128 .f32) (b : Fin 128) (k l : Fin 128) (hk : 64 ≤ k.val) :
    concatenate S128x128x128 1 [⟨S128x64x128, A⟩, ⟨S128x64x128, B⟩] concatenates_S128x64x128_S128x64x128_S128x128x128_d1 (ix3 b k l)
      = B (ix3 b ⟨k.val - 64, by have := k.isLt; omega⟩ l) :=
  concatenate_pair_apply_right 1 A B _ (ix3 b k l) rfl rfl (ix3 b ⟨k.val - 64, by have := k.isLt; omega⟩ l) (fun a ha => by
    match a, ha with
    | ⟨0, _⟩, _ => rfl
    | ⟨1, _⟩, ha => exact absurd rfl ha
    | ⟨2, _⟩, _ => rfl) (by show k.val - 64 + 64 = k.val; omega)

/-- THE BLOCK-DIAGONAL WEIGHT at an entry: the weight (transposed, both coordinates reduced mod 64) where row and lane
    lie in the same half, zero otherwise. -/
theorem blockDiag_apply (W : FVec Ideal S128x64x64 .f32) (b : Fin 128) (k l : Fin 128) :
    blockDiag W (ix3 b k l) = if k.val / 64 = l.val / 64 then W (ix3 b (lo l) (lo k)) else 0 := by
  have hk := k.isLt
  have hl := l.isLt
  unfold blockDiag
  by_cases hk64 : k.val < 64
  · rw [rows_low _ _ b k l hk64]
    by_cases hl64 : l.val < 64
    · rw [lanes_low _ _ b _ l hl64, transposed_apply, if_pos (by omega)]
      exact congrArg W (congrArg₂ (ix3 b) (Fin.ext (by show l.val = l.val % 64; omega)) (Fin.ext (by show k.val = k.val % 64; omega)))
    · rw [lanes_high _ _ b _ l (by omega), zeros_apply, if_neg (by omega)]
  · rw [rows_high _ _ b k l (by omega)]
    by_cases hl64 : l.val < 64
    · rw [lanes_low _ _ b _ l hl64, zeros_apply, if_neg (by omega)]
    · rw [lanes_high _ _ b _ l (by omega), transposed_apply, if_pos (by omega)]
      exact congrArg W (congrArg₂ (ix3 b) (Fin.ext (by show l.val - 64 = l.val % 64; omega)) (Fin.ext (by show k.val - 64 = k.val % 64; omega)))

/-- THE REPEATED BIAS at an entry. -/
theorem dupBias_apply (B : FVec Ideal S128x64 .f32) (b : Fin 128) (l : Fin 128) :
    dupBias B (ix3 b (0 : Fin 1) l) = B (ix2 b (lo l)) := by
  have hl := l.isLt
  unfold dupBias
  refine (shapeCast_apply _ shapeCasts_S128x128_S128x1x128 (ix3 b (0 : Fin 1) l) (ix2 b l) (by
    rw [Shape.rowMajor_val_two, Shape.rowMajor_val_three]
    show b.val * 128 + l.val = (b.val * 1 + 0) * 128 + l.val
    omega)).trans ?_
  by_cases hl64 : l.val < 64
  · refine (concatenate_pair_apply_left 1 B B _ (ix2 b l) rfl (ix2 b ⟨l.val, hl64⟩) (fun a => by
      match a with
      | ⟨0, _⟩ => rfl
      | ⟨1, _⟩ => rfl)).trans ?_
    exact congrArg B (congrArg (ix2 b) (Fin.ext (by show l.val = l.val % 64; omega)))
  · refine (concatenate_pair_apply_right 1 B B _ (ix2 b l) rfl rfl (ix2 b ⟨l.val - 64, by omega⟩) (fun a ha => by
      match a, ha with
      | ⟨0, _⟩, _ => rfl
      | ⟨1, _⟩, ha => exact absurd rfl ha) (by show l.val - 64 + 64 = l.val; omega)).trans ?_
    exact congrArg B (congrArg (ix2 b) (Fin.ext (by show l.val - 64 = l.val % 64; omega)))

end Cert.KernelIdeal.Host

end
-- ==== Proof.HostBefore.lean ====
/-
  What the product finds in its three operand arrays: the host lines before it have written the packed rows of `x`, the
  block-diagonal packing of the small network's weight, and its bias repeated along the lanes.
-/
import proofs.«120307_j28802050687329_2_alg».proof.Proof.Gen.KernelIdeal.Frame
import proofs.«120307_j28802050687329_2_alg».proof.Proof.HostPack
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The small network's weight, of the launch contents of the arguments. -/
def W (c : Dev nD) : FVec Ideal S128x64x64 .f32 :=
  hyperW (m ((c : Thread nD τ).loc main_arg1)) (m ((c : Thread nD τ).loc main_arg2)) (m ((c : Thread nD τ).loc main_arg3))
    (m ((c : Thread nD τ).loc main_arg4)) (m ((c : Thread nD τ).loc main_arg5))

/-- The small network's bias, of the launch contents of the arguments. -/
def B (c : Dev nD) : FVec Ideal S128x64 .f32 :=
  hyperB (m ((c : Thread nD τ).loc main_arg1)) (m ((c : Thread nD τ).loc main_arg6)) (m ((c : Thread nD τ).loc main_arg7))

/-- The first operand: `x` with its rows packed in pairs. -/
theorem V_packed (c : Dev nD) :
    (V m c main_v17 : S128x4096x128.Idx → EReal) = packRows (F := Ideal) (m ((c : Thread nD τ).loc main_arg0)) := by
  dsimp only [V, V0]
  simp only [hostOps0, hostOps0_1, hostOps0_2, List.flatten_cons, List.flatten_nil, List.append_nil, List.cons_append,
    List.nil_append]
  after_results
  rfl

/-- The second operand: the block-diagonal packing of the weight. -/
theorem V_blockDiag (c : Dev nD) : (V m c main_v22 : S128x128x128.Idx → EReal) = blockDiag (F := Ideal) (W m c) := by
  dsimp only [V, V0]
  simp only [hostOps0, hostOps0_1, hostOps0_2, List.flatten_cons, List.flatten_nil, List.append_nil, List.cons_append,
    List.nil_append]
  after_results
  rfl

/-- The third operand: the bias twice along the lanes. -/
theorem V_dupBias (c : Dev nD) : (V m c main_v24 : S128x1x128.Idx → EReal) = dupBias (F := Ideal) (B m c) := by
  dsimp only [V, V0]
  simp only [hostOps0, hostOps0_1, hostOps0_2, List.flatten_cons, List.flatten_nil, List.append_nil, List.cons_append,
    List.nil_append]
  after_results
  rfl

end Cert.KernelIdeal.Host

end
-- ==== Proof.KernelValue.lean ====
/-
  The kernel program's result as one function of its arguments.  After the region the result array holds the packed
  product of the three operand arrays (Blocks); the one host line after it views that array back as `[128, 8192, 64]`;
  the operand arrays are the packed rows of `x`, the block-diagonal weight and the repeated bias (HostBefore); and the
  packing law (PackedSum) says the packed product, read at the packed place of an entry, is the plain product
  `∑ c, x[b, w, c] · W[b, o, c] + bias[b, o]`.
-/
import proofs.«120307_j28802050687329_2_alg».proof.Proof.Gen.KernelIdeal.Frame
import proofs.«120307_j28802050687329_2_alg».proof.Proof.Blocks
import proofs.«120307_j28802050687329_2_alg».proof.Proof.HostBefore
import proofs.«120307_j28802050687329_2_alg».proof.Proof.HostPack
import proofs.«120307_j28802050687329_2_alg».proof.Proof.PackedSum
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Cert.KernelIdeal.Host PackedConv

variable (m : (ℓ : Loc nD τ sig) → Buf (Elt Ideal) ℓ) (ρ : Dev nD → PrngReg)

/-- The host line after the region: the program's result is the product's array viewed back as `[128, 8192, 64]`. -/
theorem tail_eq (c : Dev nD) :
    (Pipeline.afterTail₀ cfgs (dats m) 0 (V0 m) [hostOps1] c main_v26 : S128x8192x64.Idx → EReal)
      = unpackRows (F := Ideal) ((dats m 0 c).arrAt 3 cfg0.N) := by
  have hA : Pipeline.withArrays spec0 c (V0 m c) (fun w => (dats m 0 c).arrAt w cfg0.N) (Proc.devRef .tc main_v25)
      = (dats m 0 c).arrAt 3 cfg0.N :=
    Pipeline.withArrays_arr spec0 launch0.win.arr_inj c (V0 m c) (fun w => (dats m 0 c).arrAt w cfg0.N) 3
  unfold Pipeline.afterTail₀
  show StableHlo.after hostOps1 _ (Proc.devRef .tc main_v26) = _
  after_results
  show shapeCast S128x8192x64
      (Pipeline.withArrays spec0 c (V0 m c) (fun w => (dats m 0 c).arrAt w cfg0.N) (Proc.devRef .tc main_v25))
      shapeCasts_S128x4096x128_S128x8192x64 = _
  rw [hA]
  rfl

/-- The viewed-back packed product is the plain product array of `x`, the network's weight and the network's bias. -/
theorem value_eq (c : Dev nD) :
    unpackRows (F := Ideal) ((dats m 0 c).arrAt 3 cfg0.N)
      = convArr (m ((c.tc : Thread nD τ).loc main_arg0)) (W m c) (B m c) := by
  rw [Blocks.final, V_packed, V_blockDiag, V_dupBias]
  funext j
  obtain ⟨b, w, o, rfl⟩ : ∃ (b : Fin 128) (w : Fin 8192) (o : Fin 64), j = ix3 b w o := ⟨j 0, j 1, j 2, eq_ix3 j⟩
  rw [unpackRows_apply]
  show Blocks.packedAt _ _ _ b (pairOf w) (laneOf w o) = convAt _ _ _ b w o
  unfold Blocks.packedAt
  exact packed_eq _ _ _ _ _ _ (fun b i k => packRows_apply _ b i k) (fun b k l => blockDiag_apply _ b k l)
    (fun b l => dupBias_apply _ b l) b w o

/-- THE KERNEL PROGRAM'S RUN: every weakly fair execution ends with the result at the plain product array of `x`, the
    network's weight and the network's bias, and the arguments as launched. -/
theorem run : θ_run defs (onTc (τ := τ) (main (F := Ideal))) ⟨m, fun _ => 0, ρ⟩ fun r => ∀ c : Dev nD,
      r.2.mem ((c.tc : Thread nD τ).loc main_v26) = convArr (m ((c.tc : Thread nD τ).loc main_arg0)) (W m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v26 (Pipeline.mem_restRefs_of main_v26 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.RefSide.lean ====
/-
  The reference, read at an entry: a batched product of `x : [128, 8192, 64]` with the small network's weight
  `W : [128, 64, 64]` over the channels, plus the network's bias broadcast along the rows —
  `out[b, w, o] = ∑ c, x[b, w, c] · W[b, o, c] + bias[b, o]`.  The weight and the bias stay the two opaque stages
  the reading of the program names them (`val_main_v11`, `val_main_v16`).
-/
import proofs.«120307_j28802050687329_2_alg».proof.Proof.Gen.ReferenceIdeal.Read
import proofs.«120307_j28802050687329_2_alg».proof.Proof.PackedSum

noncomputable section

namespace Cert.ReferenceIdeal.RefValue

open Cert.ReferenceIdeal Cert.ReferenceIdeal.Gen Cert.ReferenceIdeal.Read Idealize.ShloMosaic Idealize.ShloMosaic.ValueIdx
open PackedConv

/-- The reference's result is the product array of `x`, the network's weight and the network's bias. -/
theorem ref_eq (x0 : FVec Ideal S128x8192x64 .f32) (x1 : FVec Ideal S128x6 .f32) (x2 : FVec Ideal S32x6 .f32)
    (x3 : FVec Ideal S32 .f32) (x4 : FVec Ideal S4096x32 .f32) (x5 : FVec Ideal S4096 .f32) (x6 : FVec Ideal S64x6 .f32)
    (x7 : FVec Ideal S64 .f32) :
    val_main_v20 (F := Ideal) x0 x1 x2 x3 x4 x5 x6 x7
      = convArr x0 (val_main_v11 (F := Ideal) x1 x2 x3 x4 x5) (val_main_v16 (F := Ideal) x1 x6 x7) := by
  funext j
  obtain ⟨b, w, o, rfl⟩ : ∃ (b : Fin 128) (w : Fin 8192) (o : Fin 64), j = ix3 b w o := ⟨j 0, j 1, j 2, eq_ix3 j⟩
  have e1 : ∀ k : Fin 64, lidx_main_v17 (ix3 b w o) k = ix3 b w k := fun k => funext fun a => by
    match a with
    | ⟨0, _⟩ => rfl
    | ⟨1, _⟩ => rfl
    | ⟨2, _⟩ => rfl
  have e2 : ∀ k : Fin 64, ridx_main_v17 (ix3 b w o) k = ix3 b o k := fun k => funext fun a => by
    match a with
    | ⟨0, _⟩ => rfl
    | ⟨1, _⟩ => rfl
    | ⟨2, _⟩ => rfl
  have e3 : idx_main_v18 (idx_main_v19 (ix3 b w o)) = ix2 b o := funext fun a => by
    match a with
    | ⟨0, _⟩ => rfl
    | ⟨1, _⟩ => rfl
  rw [val_main_v20_apply, val_main_v17_apply, val_main_v19_apply, val_main_v18_apply]
  simp only [e1, e2, e3, Ideal.addf_def]
  rfl

end Cert.ReferenceIdeal.RefValue

end
-- ==== Proof.SameNet.lean ====
/-
  Both programs compute the per-batch weight and bias with the same small network, line for line: the two printed
  texts of it are one function of the parameters.
-/
import proofs.«120307_j28802050687329_2_alg».proof.Proof.HostPack
import proofs.«120307_j28802050687329_2_alg».proof.Proof.Gen.ReferenceIdeal.Read

noncomputable section

namespace Cert.Proof.SameNet

open Idealize.ShloMosaic

/-- The weight: the kernel program's network is the reference's. -/
theorem weight_eq (x1 : FVec Ideal Cert.KernelIdeal.S128x6 .f32) (x2 : FVec Ideal Cert.KernelIdeal.S32x6 .f32)
    (x3 : FVec Ideal Cert.KernelIdeal.S32 .f32) (x4 : FVec Ideal Cert.KernelIdeal.S4096x32 .f32)
    (x5 : FVec Ideal Cert.KernelIdeal.S4096 .f32) :
    Cert.KernelIdeal.Host.hyperW (F := Ideal) x1 x2 x3 x4 x5
      = Cert.ReferenceIdeal.Read.val_main_v11 (F := Ideal) x1 x2 x3 x4 x5 := rfl

/-- The bias: the kernel program's network is the reference's. -/
theorem bias_eq (x1 : FVec Ideal Cert.KernelIdeal.S128x6 .f32) (x6 : FVec Ideal Cert.KernelIdeal.S64x6 .f32)
    (x7 : FVec Ideal Cert.KernelIdeal.S64 .f32) :
    Cert.KernelIdeal.Host.hyperB (F := Ideal) x1 x6 x7
      = Cert.ReferenceIdeal.Read.val_main_v16 (F := Ideal) x1 x6 x7 := rfl

end Cert.Proof.SameNet

end
-- ==== Proof.lean ====
/-
  A per-batch pointwise convolution (kernel size 1): `out[b, w, o] = ∑ c, x[b, w, c] · W[b, o, c] + bias[b, o]`, the
  weight `W` and the bias made from the parameters by a small network that both programs spell identically.

  The reference computes that sum directly.  The kernel program views `x : [128, 8192, 64]` as `[128, 4096, 128]` (two
  consecutive rows side by side in one row of 128 lanes), multiplies by the block-diagonal matrix `[[Wᵀ, 0], [0, Wᵀ]]`
  two batches at a time over a grid of 64 steps, adds the bias repeated in both halves, and views the result back.
  On the extended reals a contraction over the 128 lanes against the block-diagonal matrix splits into its two halves;
  the half that meets the zero block is a sum of products with zero and vanishes, the other half is the reference's
  contraction over 64 channels (Proof/PackedSum.lean).  The roundings to bf16 on the way into the product are the
  identity there, and no finiteness of the inputs is used.

  The modules: PackedSum (the law), BodyPay (one grid step's stored block at an entry), Blocks (the 64 blocks are one
  function of the whole operand arrays and tile the result), HostPack and HostBefore (the host lines around the product,
  read at an entry), KernelValue (the kernel program's run), RefSide (the reference at an entry), SameNet (the two
  printings of the small network are one function).
-/
import proofs.«120307_j28802050687329_2_alg».proof.Defs
import proofs.«120307_j28802050687329_2_alg».proof.Proof.Gen.Kernel
import proofs.«120307_j28802050687329_2_alg».proof.Proof.Gen.Kernel.Frame
import proofs.«120307_j28802050687329_2_alg».proof.Proof.Gen.KernelIdeal
import proofs.«120307_j28802050687329_2_alg».proof.Proof.Gen.KernelIdeal.Frame
import proofs.«120307_j28802050687329_2_alg».proof.Proof.Gen.ReferenceIdeal
import proofs.«120307_j28802050687329_2_alg».proof.Proof.Gen.ReferenceIdeal.Run
import proofs.«120307_j28802050687329_2_alg».proof.Proof.Gen.ReferenceIdeal.Read
import proofs.«120307_j28802050687329_2_alg».proof.Proof.Gen.Pre_finite_inputs
import proofs.«120307_j28802050687329_2_alg».proof.Proof.KernelValue
import proofs.«120307_j28802050687329_2_alg».proof.Proof.RefSide
import proofs.«120307_j28802050687329_2_alg».proof.Proof.SameNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the product array of `x`, the network's weight and the network's bias: the kernel program by
    the packing law, the reference by reading its batched product at an entry. -/
theorem algebraic : Cert.algebraic_KernelIdeal_ReferenceIdeal := by
  intro m ρ m' ρ' _ hagree
  refine ⟨fun c => PackedConv.convArr (m ((c.tc : Thread Cert.KernelIdeal.nD Cert.KernelIdeal.τ).loc Cert.KernelIdeal.main_arg0))
      (Cert.KernelIdeal.Host.W m c) (Cert.KernelIdeal.Host.B m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine (Cert.ReferenceIdeal.Read.val_main_v20_eq _ _ _ _ _ _ _ _).trans
    ((Cert.ReferenceIdeal.RefValue.ref_eq _ _ _ _ _ _ _ _).trans ?_)
  rw [a0, a1, a2, a3, a4, a5, a6, a7]
  exact congrArg₂ (PackedConv.convArr _) (SameNet.weight_eq _ _ _ _ _).symm (SameNet.bias_eq _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
